-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x8192 : Shape := ⟨3, ![8, 2048, 8192]⟩
abbrev S8x8192x2048 : Shape := ⟨3, ![8, 8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x8192x2048 : S_.BroadcastsInDim S8x8192x2048 (![] : Fin 0 → Fin S8x8192x2048.rank)
  reducesTo_S8x8192x2048_S_d0_1_2 : S8x8192x2048.ReducesTo [0, 1, 2] S_

variable [Facts]

def fn_part1 {F : FTy → Type} [FloatOps F] (main_v13 : IVec S_ 1) (main_v16 : IVec S8x8192x2048 1) : IVec S_ 1 :=
  let main_c_5 : IVec S_ 1 := constantI S_ 1 1#1
  let main_v17 : IVec S_ 1 := (fun x v => Host.reduce IntOp.andi x v reducesTo_S8x8192x2048_S_d0_1_2 h_S_) main_v16 main_c_5
  let main_v18 : IVec S_ 1 := andi main_v13 main_v17
  main_v18

def fn {F : FTy → Type} [FloatOps F] (main_arg0 : FVec F S8192x2048 .f32) (main_arg1 : FVec F S8x2048x8192 .f32) (main_arg2 : FVec F S8x2048x8192 .f32) (main_arg3 : FVec F S8x8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x2048x8192 .f32 := Host.absf main_arg2
  let main_cst_2 : FVec F S_ .f32 := constant S_ .f32 0x7F800000#32
  let main_v10 : FVec F S8x2048x8192 .f32 := broadcastInDim S8x2048x8192 ![] bcast_S_S8x2048x8192 main_cst_2
  let main_v11 : IVec S8x2048x8192 1 := cmpf .olt main_v9 main_v10
  let main_c_3 : IVec S_ 1 := constantI S_ 1 1#1
  let main_v12 : IVec S_ 1 := (fun x v => Host.reduce IntOp.andi x v reducesTo_S8x2048x8192_S_d0_1_2 h_S_) main_v11 main_c_3
  let main_v13 : IVec S_ 1 := andi main_v8 main_v12
  let main_v14 : FVec F S8x8192x2048 .f32 := Host.absf main_arg3
  let main_cst_4 : FVec F S_ .f32 := constant S_ .f32 0x7F800000#32
  let main_v15 : FVec F S8x8192x2048 .f32 := broadcastInDim S8x8192x2048 ![] bcast_S_S8x8192x2048 main_cst_4
  let main_v16 : IVec S8x8192x2048 1 := cmpf .olt main_v14 main_v15
  fn_part1 (F := F) main_v13 main_v16
-- ==== Kernel.lean ====
abbrev S8192x2048 : Shape := ⟨2, ![8192, 2048]⟩
abbrev S8x2048x8192 : Shape := ⟨3, ![8, 2048, 8192]⟩
abbrev S8x8192x2048 : Shape := ⟨3, ![8, 8192, 2048]⟩
abbrev S512x2048 : Shape := ⟨2, ![512, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x512 : Shape := ⟨2, ![512, 512]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x2048x8192, .f32⟩
  | .hbm, ⟨3, _⟩ => ⟨S8x8192x2048, .f32⟩
  | .hbm, ⟨4, _⟩ => ⟨S8192x2048, .bf16⟩
  | .hbm, ⟨5, _⟩ => ⟨S8x2048x8192, .bf16⟩
  | .hbm, ⟨6, _⟩ => ⟨S8x2048x8192, .bf16⟩
  | .hbm, ⟨7, _⟩ => ⟨S8x8192x2048, .bf16⟩
  | .hbm, ⟨8, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 16], ![false, false, false]⟩

def k0_cond2 (i : grid0.Coords) : BitVec 1 :=
  let arg2 : BitVec 32 := BitVec.ofNat 32 (i 2).val
  let c15_i32 : BitVec 32 := 15#32
  let v23 : BitVec 1 := Scalar.cmpi .eq arg2 c15_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x8192.size a
  hwx0_1 : ∀ i : grid0.Coords, EltTy.bits .bf16 = 32 ∨ (Rect.block (s := S8x2048x8192) S1x2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x8192.size a
  hwx0_2 : ∀ i : grid0.Coords, EltTy.bits .bf16 = 32 ∨ (Rect.block (s := S8x2048x8192) S1x2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x8192x2048.size a
  hwx0_3 : ∀ i : grid0.Coords, EltTy.bits .bf16 = 32 ∨ (Rect.block (s := S8x8192x2048) S1x512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8x2048x8192 : Shape := ⟨3, ![8, 2048, 8192]⟩
abbrev S8x8192x2048 : Shape := ⟨3, ![8, 8192, 2048]⟩
abbrev S8x1024x2048 : Shape := ⟨3, ![8, 1024, 2048]⟩
abbrev S8x1024x8192 : Shape := ⟨3, ![8, 1024, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x2048x8192, .f32⟩
  | .hbm, ⟨3, _⟩ => ⟨S8x8192x2048, .f32⟩
  | .hbm, ⟨4, _⟩ => ⟨S8x1024x2048, .f32⟩
  | .hbm, ⟨5, _⟩ => ⟨S8x1024x8192, .f32⟩
  | .hbm, ⟨6, _⟩ => ⟨S8x1024x8192, .f32⟩
  | .hbm, ⟨7, _⟩ => ⟨S8x1024x8192, .f32⟩
  | .hbm, ⟨8, _⟩ => ⟨S8x1024x8192, .f32⟩
  | .hbm, ⟨9, _⟩ => ⟨S_, .f32⟩
  | .hbm, ⟨10, _⟩ => ⟨S8x1024x8192, .f32⟩
  | .hbm, ⟨11, _⟩ => ⟨S8x1024x8192, .f32⟩
  | .hbm, ⟨12, _⟩ => ⟨S_, .f32⟩
  | .hbm, ⟨13, _⟩ => ⟨S8x1024x8192, .f32⟩
  | .hbm, ⟨14, _⟩ => ⟨S8x1024x8192, .f32⟩
  | .hbm, ⟨15, _⟩ => ⟨S8x1024x8192, .f32⟩
  | .hbm, ⟨16, _⟩ => ⟨S8x1024x8192, .f32⟩
  | .hbm, ⟨17, _⟩ => ⟨S8x1024x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]

class Facts₀ : Prop where
  shapeCasts_S8192x2048_S8x1024x2048 : S8192x2048.ShapeCasts S8x1024x2048
  bcast_S_S8x1024x8192 : S_.BroadcastsInDim S8x1024x8192 (![] : Fin 0 → Fin S8x1024x8192.rank)
  shapeCasts_S8x1024x2048_S8192x2048 : S8x1024x2048.ShapeCasts S8192x2048
  dot_S8x1024x2048_S8x2048x8192_S8x1024x8192_2_1_1_2_0_0_wf : DotDims.WF S8x1024x2048 S8x2048x8192 S8x1024x8192 [2] [1] [1] [2] [0] [0]
  dot_S8x1024x8192_S8x8192x2048_S8x1024x2048_2_1_1_2_0_0_wf : DotDims.WF S8x1024x8192 S8x8192x2048 S8x1024x2048 [2] [1] [1] [2] [0] [0]

variable [Facts₀]

def dot_S8x1024x2048_S8x2048x8192_S8x1024x8192_2_1_1_2_0_0 : DotDims S8x1024x2048 S8x2048x8192 S8x1024x8192 where
  lhsContracting := [2]
  rhsContracting := [1]
  lhsNonContracting := [1]
  rhsNonContracting := [2]
  lhsBatch := [0]
  rhsBatch := [0]
  wf := dot_S8x1024x2048_S8x2048x8192_S8x1024x8192_2_1_1_2_0_0_wf
def dot_S8x1024x8192_S8x8192x2048_S8x1024x2048_2_1_1_2_0_0 : DotDims S8x1024x8192 S8x8192x2048 S8x1024x2048 where
  lhsContracting := [2]
  rhsContracting := [1]
  lhsNonContracting := [1]
  rhsNonContracting := [2]
  lhsBatch := [0]
  rhsBatch := [0]
  wf := dot_S8x1024x8192_S8x8192x2048_S8x1024x2048_2_1_1_2_0_0_wf

class Facts : Prop extends Facts₀ where

variable [Facts]
-- ==== Proof.Spec.lean ====
/-
  The function both programs compute, stated once, index by index, over the argument arrays alone.

  Tokens are the rows of `x : [8192, 2048]`; row `t` belongs to expert `t / 1024`. For an expert `e`, a row `t` and a
  hidden unit `k < 8192`:
    gate t e k = ∑ h < 2048, x[t, h] · Wg[e, h, k]        up t e k = ∑ h < 2048, x[t, h] · Wu[e, h, k]
    act  t e k = up t e k · (gate t e k · σ(gate t e k))   with σ z = 1 / (1 + exp (-z)) on the extended reals
  and the result is
    out[t, c] = ∑ k < 8192, act t (t / 1024) k · Wd[t / 1024, k, c].
  Nothing here needs the entries to be finite: the two programs differ only in how the last sum is grouped.
-/
import Idealize.ShloMosaic.PureOps.Ideal
import Idealize.ShloMosaic.Lib.ValueIdx

noncomputable section

open scoped BigOperators

namespace Cert.GatedExperts

open Idealize.ShloMosaic Idealize.ShloMosaic.ValueIdx

/-- The token array, `[8192, 2048]`. -/
abbrev Tok : Type := (⟨2, ![8192, 2048]⟩ : Shape).Idx → EReal
/-- An up-projection weight array, `[8, 2048, 8192]` (expert, input unit, hidden unit). -/
abbrev WIn : Type := (⟨3, ![8, 2048, 8192]⟩ : Shape).Idx → EReal
/-- The down-projection weight array, `[8, 8192, 2048]` (expert, hidden unit, output unit). -/
abbrev WOut : Type := (⟨3, ![8, 8192, 2048]⟩ : Shape).Idx → EReal

/-- The expert a token row belongs to: rows are grouped 1024 to an expert. -/
def expertOf (t : Fin 8192) : Fin 8 := ⟨t.val / 1024, by omega⟩

/-- The gated activation `z · σ(z)`, `σ z = 1 / (1 + exp (-z))`, on the extended reals. -/
def swish (z : EReal) : EReal := z * Ideal.logistic z

/-- One projection of a token row onto hidden unit `k` of expert `e`: `∑ h, x[t, h] · W[e, h, k]`. -/
def proj (x : Tok) (w : WIn) (t : Fin 8192) (e : Fin 8) (k : Fin 8192) : EReal :=
  ∑ h : Fin 2048, x (ix2 t h) * w (ix3 e h k)

/-- The activation that enters the down projection: `up · swish gate`. -/
def act (x : Tok) (gw uw : WIn) (t : Fin 8192) (e : Fin 8) (k : Fin 8192) : EReal :=
  proj x uw t e k * swish (proj x gw t e k)

/-- The result at row `t`, column `c`. -/
def outAt (x : Tok) (gw uw : WIn) (dw : WOut) (t : Fin 8192) (c : Fin 2048) : EReal :=
  ∑ k : Fin 8192, act x gw uw t (expertOf t) k * dw (ix3 (expertOf t) k c)

/-- The result array as one function of the four argument arrays. -/
def G (x : Tok) (gw uw : WIn) (dw : WOut) : Tok := fun i => outAt x gw uw dw (i 0) (i 1)

theorem G_ix2 (x : Tok) (gw uw : WIn) (dw : WOut) (t : Fin 8192) (c : Fin 2048) :
    G x gw uw dw (ix2 t c) = outAt x gw uw dw t c := rfl

end Cert.GatedExperts

end
-- ==== Proof.RefIsG.lean ====
/-
  The reference computes `G`.

  Read one operation at a time, the reference reshapes the token array to [8, 1024, 2048] (row `t` becomes
  (t / 1024, t % 1024)), contracts the input-unit axis against each expert's gate and up weights, applies
  `z ↦ z · (1 / (1 + exp (-z)))` to the gate projection, multiplies by the up projection, contracts the hidden-unit
  axis against the expert's down weights and reshapes back. On the extended reals `1 / (1 + exp (-z))` is the logistic
  function's own definition, so every stage is a stage of `G`; what remains is bookkeeping of indices: the two
  reshapes are inverse row-major re-indexings, and a batched contraction reads both operands at the same expert.
-/
import proofs.«100543_j5394478924014_2_alg».proof.Proof.Gen.ReferenceIdeal.Read
import proofs.«100543_j5394478924014_2_alg».proof.Proof.Spec

noncomputable section

open scoped BigOperators

namespace Cert.ReferenceIdeal.RefValue

open Cert.ReferenceIdeal Cert.ReferenceIdeal.Read Idealize.ShloMosaic Idealize.ShloMosaic.ValueIdx Cert.GatedExperts

/-- The word of `1.0` denotes the real number one. -/
theorem one_word : Ideal.ofBits .f32 0x3F800000#32 = 1 := by
  simp [Ideal.ofBits, Ideal.ieee, -EReal.coe_mul]; norm_num

/-- A token row's position inside its expert's group of 1024 rows. -/
def rowIn (t : Fin 8192) : Fin 1024 := ⟨t.val % 1024, Nat.mod_lt _ (by decide)⟩

/-- The final reshape reads entry (t, c) at (t / 1024, t % 1024, c). -/
theorem idx_out (t : Fin 8192) (c : Fin 2048) : idx_main_v6 (ix2 t c) = ix3 (expertOf t) (rowIn t) c := by
  funext a; apply Fin.ext
  have ht := t.isLt; have hc := c.isLt
  match a with
  | ⟨0, _⟩ => show (t.val * 2048 + c.val) / 2097152 = t.val / 1024; omega
  | ⟨1, _⟩ => show (t.val * 2048 + c.val) / 2048 % 1024 = t.val % 1024; omega
  | ⟨2, _⟩ => show (t.val * 2048 + c.val) % 2048 = c.val; omega

/-- The first reshape reads entry (t / 1024, t % 1024, h) at (t, h). -/
theorem idx_tok (t : Fin 8192) (h : Fin 2048) : idx_main_v0 (ix3 (expertOf t) (rowIn t) h) = ix2 t h := by
  funext a; apply Fin.ext
  have ht := t.isLt; have hh := h.isLt
  match a with
  | ⟨0, _⟩ => show ((t.val / 1024 * 1024 + t.val % 1024) * 2048 + h.val) / 2048 = t.val; omega
  | ⟨1, _⟩ => show ((t.val / 1024 * 1024 + t.val % 1024) * 2048 + h.val) % 2048 = h.val; omega

theorem lidx_down (e : Fin 8) (r : Fin 1024) (c : Fin 2048) (k : Fin 8192) : lidx_main_v5 (ix3 e r c) k = ix3 e r k := by
  funext a; match a with | ⟨0, _⟩ => rfl | ⟨1, _⟩ => rfl | ⟨2, _⟩ => rfl
theorem ridx_down (e : Fin 8) (r : Fin 1024) (c : Fin 2048) (k : Fin 8192) : ridx_main_v5 (ix3 e r c) k = ix3 e k c := by
  funext a; match a with | ⟨0, _⟩ => rfl | ⟨1, _⟩ => rfl | ⟨2, _⟩ => rfl
theorem lidx_gate (e : Fin 8) (r : Fin 1024) (k : Fin 8192) (h : Fin 2048) : lidx_main_v1 (ix3 e r k) h = ix3 e r h := by
  funext a; match a with | ⟨0, _⟩ => rfl | ⟨1, _⟩ => rfl | ⟨2, _⟩ => rfl
theorem ridx_gate (e : Fin 8) (r : Fin 1024) (k : Fin 8192) (h : Fin 2048) : ridx_main_v1 (ix3 e r k) h = ix3 e h k := by
  funext a; match a with | ⟨0, _⟩ => rfl | ⟨1, _⟩ => rfl | ⟨2, _⟩ => rfl
theorem lidx_up (e : Fin 8) (r : Fin 1024) (k : Fin 8192) (h : Fin 2048) : lidx_main_v2 (ix3 e r k) h = ix3 e r h := by
  funext a; match a with | ⟨0, _⟩ => rfl | ⟨1, _⟩ => rfl | ⟨2, _⟩ => rfl
theorem ridx_up (e : Fin 8) (r : Fin 1024) (k : Fin 8192) (h : Fin 2048) : ridx_main_v2 (ix3 e r k) h = ix3 e h k := by
  funext a; match a with | ⟨0, _⟩ => rfl | ⟨1, _⟩ => rfl | ⟨2, _⟩ => rfl

/-- The gate contraction at (t / 1024, t % 1024, k) is the projection of row `t` onto hidden unit `k`. -/
theorem gate_eq (x : Tok) (w : WIn) (t : Fin 8192) (k : Fin 8192) :
    val_main_v1 (F := Ideal) x w (ix3 (expertOf t) (rowIn t) k) = proj x w t (expertOf t) k := by
  rw [val_main_v1_apply]; unfold proj
  refine Finset.sum_congr rfl fun h _ => ?_
  rw [val_main_v0_apply, lidx_gate, ridx_gate, idx_tok]

/-- The same for the up contraction. -/
theorem up_eq (x : Tok) (w : WIn) (t : Fin 8192) (k : Fin 8192) :
    val_main_v2 (F := Ideal) x w (ix3 (expertOf t) (rowIn t) k) = proj x w t (expertOf t) k := by
  rw [val_main_v2_apply]; unfold proj
  refine Finset.sum_congr rfl fun h _ => ?_
  rw [val_main_v0_apply, lidx_up, ridx_up, idx_tok]

/-- The reference's result, as the stages compose it, is `G` of the argument arrays. -/
theorem reference_eq (x : Tok) (gw uw : WIn) (dw : WOut) :
    val_main_v6 (F := Ideal) x gw uw dw = G x gw uw dw := by
  funext i
  obtain ⟨t, c, rfl⟩ : ∃ (t : Fin 8192) (c : Fin 2048), i = ix2 t c := ⟨i 0, i 1, eq_ix2 i⟩
  rw [val_main_v6_apply, idx_out, val_main_v5_apply, G_ix2]; unfold outAt
  refine Finset.sum_congr rfl fun k _ => ?_
  rw [lidx_down, ridx_down, val_main_v4_apply, val_main_v3_apply, val_main_call0_v5_apply, val_main_call0_v4_apply,
    val_main_call0_cst_0_apply, val_main_call0_v3_apply, val_main_call0_v2_apply, val_main_call0_cst_apply,
    val_main_call0_v1_apply, val_main_call0_v0_apply, gate_eq, up_eq]
  simp only [Ideal.mulf_def, Ideal.hostDivf_def, Ideal.addf_def, Ideal.hostUnary_exp_def, Ideal.hostNegf_def,
    Ideal.negf_def, Ideal.ofBits_def, one_word]
  rfl

end Cert.ReferenceIdeal.RefValue

end
-- ==== Proof.Pieces.lean ====
/-
  What each control case of the body leaves behind, as values.

  The body has one accumulator block `acc` ([512, 2048], kept between grid points) and, per point, four input blocks:
  a [512, 2048] block of tokens, a [2048, 512] tile of gate weights, one of up weights and a [512, 2048] tile of down
  weights. Write `step x g u d a` for "`a` plus this tile's contribution". The three cases are:
    first tile of a run  : the accumulator is cleared, then stepped — it ends at `step x g u d 0`;
    a middle tile        : the accumulator is stepped — it ends at `step x g u d acc`;
    last tile of a run   : the accumulator is stepped, and the output block is a copy of the stepped accumulator.
  Each statement below says that the pieces the body's run leaves in a buffer, read back, are that value: every store
  covers its whole buffer from offset zero, and every load reads a whole buffer from offset zero.
-/
import proofs.«100543_j5394478924014_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile leaves the accumulator stepped once. -/
theorem acc_middle (c : Dev nD) (i : grid0.Coords) (a3 : Memref sig .tc .vmem S512x2048 .bf16) (h3 : a3.IsWhole) (a4 : Memref sig .tc .vmem S1x2048x512 .bf16) (h4 : a4.IsWhole) (a5 : Memref sig .tc .vmem S1x2048x512 .bf16) (h5 : a5.IsWhole) (a6 : Memref sig .tc .vmem S1x512x2048 .bf16) (h6 : a6.IsWhole) (a7 : Memref sig .tc .vmem S512x2048 .f32) (h7 : a7.IsWhole) (a8 : Memref sig .tc .vmem S512x2048 .f32) (h8 : a8.IsWhole) (hc0 : ¬cond0_0 i) (hc1 : ¬cond0_1 i)
    (x0 : Vec F S512x2048 .bf16) (x1 : Vec F S1x2048x512 .bf16) (x2 : Vec F S1x2048x512 .bf16) (x3 : Vec F S1x512x2048 .bf16) (xs0 : Vec F S512x2048 .f32) :
    sout0_B_0 c i a3 h3 a4 h4 a5 h5 a6 h6 a7 h7 a8 h8 hc0 hc1 x0 x1 x2 x3 xs0 = k0_pay2 x0 x1 x2 x3 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  rw [View.canon_unit_zero hz2]
  simp only [View.readAt_eq_ld, h3.read_unread, h4.read_unread, h5.read_unread, h6.read_unread, h8.read_unread,
    View.ld_unit_zero (S := S512x2048) hz2, View.ld_unit_zero (S := S1x2048x512) hz3, View.ld_unit_zero (S := S1x512x2048) hz3]

/-- The last tile of a run leaves the accumulator stepped once, too. -/
theorem acc_last (c : Dev nD) (i : grid0.Coords) (a3 : Memref sig .tc .vmem S512x2048 .bf16) (h3 : a3.IsWhole) (a4 : Memref sig .tc .vmem S1x2048x512 .bf16) (h4 : a4.IsWhole) (a5 : Memref sig .tc .vmem S1x2048x512 .bf16) (h5 : a5.IsWhole) (a6 : Memref sig .tc .vmem S1x512x2048 .bf16) (h6 : a6.IsWhole) (a7 : Memref sig .tc .vmem S512x2048 .f32) (h7 : a7.IsWhole) (a8 : Memref sig .tc .vmem S512x2048 .f32) (h8 : a8.IsWhole) (hc0 : ¬cond0_0 i) (hc1 : cond0_1 i)
    (x0 : Vec F S512x2048 .bf16) (x1 : Vec F S1x2048x512 .bf16) (x2 : Vec F S1x2048x512 .bf16) (x3 : Vec F S1x512x2048 .bf16) (xs0 : Vec F S512x2048 .f32) :
    sout0_C_0 c i a3 h3 a4 h4 a5 h5 a6 h6 a7 h7 a8 h8 hc0 hc1 x0 x1 x2 x3 xs0 = k0_pay2 x0 x1 x2 x3 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz2]
  simp only [View.readAt_eq_ld, h3.read_unread, h4.read_unread, h5.read_unread, h6.read_unread, h8.read_unread,
    View.ld_unit_zero (S := S512x2048) hz2, View.ld_unit_zero (S := S1x2048x512) hz3, View.ld_unit_zero (S := S1x512x2048) hz3]

/-- ... and the output block it commits is a copy of that stepped accumulator. -/
theorem out_last (c : Dev nD) (i : grid0.Coords) (a3 : Memref sig .tc .vmem S512x2048 .bf16) (h3 : a3.IsWhole) (a4 : Memref sig .tc .vmem S1x2048x512 .bf16) (h4 : a4.IsWhole) (a5 : Memref sig .tc .vmem S1x2048x512 .bf16) (h5 : a5.IsWhole) (a6 : Memref sig .tc .vmem S1x512x2048 .bf16) (h6 : a6.IsWhole) (a7 : Memref sig .tc .vmem S512x2048 .f32) (h7 : a7.IsWhole) (a8 : Memref sig .tc .vmem S512x2048 .f32) (h8 : a8.IsWhole) (hc0 : ¬cond0_0 i) (hc1 : cond0_1 i)
    (x0 : Vec F S512x2048 .bf16) (x1 : Vec F S1x2048x512 .bf16) (x2 : Vec F S1x2048x512 .bf16) (x3 : Vec F S1x512x2048 .bf16) (xs0 : Vec F S512x2048 .f32) :
    out0_C_4 c i a3 h3 a4 h4 a5 h5 a6 h6 a7 h7 a8 h8 hc0 hc1 x0 x1 x2 x3 xs0 = k0_pay2 x0 x1 x2 x3 xs0 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz2, View.readCov_unit_zero (S := S512x2048) _ hz2]
  simp only [View.readAt_eq_ld, h3.read_unread, h4.read_unread, h5.read_unread, h6.read_unread, h8.read_unread,
    View.ld_unit_zero (S := S512x2048) hz2, View.ld_unit_zero (S := S1x2048x512) hz3, View.ld_unit_zero (S := S1x512x2048) hz3]

/-- The first tile of a run clears the accumulator and steps it: it ends at the step of the zero block. -/
theorem acc_first (c : Dev nD) (i : grid0.Coords) (a3 : Memref sig .tc .vmem S512x2048 .bf16) (h3 : a3.IsWhole) (a4 : Memref sig .tc .vmem S1x2048x512 .bf16) (h4 : a4.IsWhole) (a5 : Memref sig .tc .vmem S1x2048x512 .bf16) (h5 : a5.IsWhole) (a6 : Memref sig .tc .vmem S1x512x2048 .bf16) (h6 : a6.IsWhole) (a7 : Memref sig .tc .vmem S512x2048 .f32) (h7 : a7.IsWhole) (a8 : Memref sig .tc .vmem S512x2048 .f32) (h8 : a8.IsWhole) (hc0 : cond0_0 i) (hc1 : ¬cond0_1 i)
    (x0 : Vec F S512x2048 .bf16) (x1 : Vec F S1x2048x512 .bf16) (x2 : Vec F S1x2048x512 .bf16) (x3 : Vec F S1x512x2048 .bf16) :
    sout0_A_0 c i a3 h3 a4 h4 a5 h5 a6 h6 a7 h7 a8 h8 hc0 hc1 x0 x1 x2 x3 = k0_pay2 x0 x1 x2 x3 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S512x2048) hz2, View.readCov_unit_zero (S := S512x2048) _ hz2]
  simp only [View.readAt_eq_ld, h3.read_unread, h4.read_unread, h5.read_unread, h6.read_unread, h8.read_unread,
    View.ld_unit_zero (S := S512x2048) hz2, View.ld_unit_zero (S := S1x2048x512) hz3, View.ld_unit_zero (S := S1x512x2048) hz3]

end Cert.KernelIdeal.Pieces

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.Step.lean ====
/-
  One grid point's step on the accumulator, read at an entry, over the extended reals.

  With `x` the point's [512, 2048] token block, `g`, `u` its [2048, 512] gate and up weight tiles and `d` its [512, 2048]
  down weight tile, the body turns an accumulator block `a` into
    a[r, c] + ∑ j < 512, (up r j · (gate r j · σ(gate r j))) · d[j, c],
  where gate r j = ∑ h < 2048, x[r, h] · g[h, j] and up r j likewise with `u`. Changes of float format are the identity
  on the extended reals, a matrix product into a zero accumulator is the plain sum of products, and the weight tiles
  arrive with a leading axis of extent one that the body drops.
-/
import proofs.«100543_j5394478924014_2_alg».proof.Proof.Gen.KernelIdeal.Skeleton
import proofs.«100543_j5394478924014_2_alg».proof.Proof.Spec
import proofs.«100543_j5394478924014_2_alg».proof.Proof.LibMatProd
import Idealize.ShloMosaic.Lib.Pipeline.Value
import Idealize.ShloMosaic.Lib.ValueIdx

noncomputable section

open scoped BigOperators

namespace Cert.KernelIdeal.Step

open Cert.KernelIdeal Cert.KernelIdeal.Gen Idealize.ShloMosaic Idealize.ShloMosaic.ValueIdx Cert.GatedExperts

/-- A token block's row `r` against column `j` of a [1, 2048, 512] weight tile. -/
def tileProj (x : Vec Ideal S512x2048 .bf16) (w : Vec Ideal S1x2048x512 .bf16) (r j : Fin 512) : EReal :=
  ∑ h : Fin 2048, x (ix2 r h) * w (ix3 0 h j)

/-- Dropping the leading unit axis of a [1, 2048, 512] tile reads entry (h, j) at (0, h, j). -/
theorem drop_in (w : Vec Ideal S1x2048x512 .bf16) (h : Fin 2048) (j : Fin 512) :
    shapeCast S2048x512 w shapeCasts_S1x2048x512_S2048x512 (ix2 h j) = w (ix3 0 h j) :=
  shapeCast_apply w shapeCasts_S1x2048x512_S2048x512 (ix2 h j) (ix3 0 h j)
    (by rewrite [Shape.rowMajor_val_three, Shape.rowMajor_val_two]
        show (0 * 2048 + h.val) * 512 + j.val = h.val * 512 + j.val
        omega)

/-- Dropping the leading unit axis of a [1, 512, 2048] tile reads entry (j, c) at (0, j, c). -/
theorem drop_out (w : Vec Ideal S1x512x2048 .bf16) (j : Fin 512) (c : Fin 2048) :
    shapeCast S512x2048 w shapeCasts_S1x512x2048_S512x2048 (ix2 j c) = w (ix3 0 j c) :=
  shapeCast_apply w shapeCasts_S1x512x2048_S512x2048 (ix2 j c) (ix3 0 j c)
    (by rewrite [Shape.rowMajor_val_three, Shape.rowMajor_val_two]
        show (0 * 512 + j.val) * 2048 + c.val = j.val * 2048 + c.val
        omega)

/-- The body's first two products: the token block against a weight tile, entry (r, j). -/
theorem tile_product (x : Vec Ideal S512x2048 .bf16) (w : Vec Ideal S1x2048x512 .bf16) (r j : Fin 512) :
    matmul dot_S512x2048_S2048x512_S512x512_1_0_0_1_n_n none
        (shapeCast S512x2048 x shapeCasts_S512x2048_S512x2048 : FVec Ideal S512x2048 .bf16)
        (shapeCast S2048x512 w shapeCasts_S1x2048x512_S2048x512 : FVec Ideal S2048x512 .bf16)
        (constant S512x512 .f32 0x00000000#32) (ix2 r j)
      = tileProj x w r j := by
  refine (Cert.MatProd.matmul_plain_zero_apply (M := 512) (K := 2048) (N := 512) none _ _ r j).trans ?_
  unfold tileProj
  refine Finset.sum_congr rfl fun h _ => ?_
  refine congrArg₂ (· * ·) ?_ (drop_in w h j)
  exact congrFun (shapeCast_self x shapeCasts_S512x2048_S512x2048) (ix2 r h)

/-- THE STEP AT AN ENTRY. -/
theorem step_apply (x : Vec Ideal S512x2048 .bf16) (g u : Vec Ideal S1x2048x512 .bf16) (d : Vec Ideal S1x512x2048 .bf16)
    (a : Vec Ideal S512x2048 .f32) (r : Fin 512) (c : Fin 2048) :
    k0_pay2 (F := Ideal) x g u d a (ix2 r c)
      = a (ix2 r c) + ∑ j : Fin 512, (tileProj x u r j * swish (tileProj x g r j)) * d (ix3 0 j c) := by
  unfold k0_pay2
  refine (congrFun (shapeCast_self _ shapeCasts_S512x2048_S512x2048) (ix2 r c)).trans ?_
  refine (addf_apply _ _ _).trans ?_
  refine congrArg (a (ix2 r c) + ·) ?_
  refine (Cert.MatProd.matmul_plain_zero_apply (M := 512) (K := 512) (N := 2048) none _ _ r c).trans ?_
  refine Finset.sum_congr rfl fun j _ => ?_
  refine congrArg₂ (· * ·) ?_ (drop_out d j c)
  refine (truncf_apply (ψ := .bf16) _ bitsLt_bf16_f32 (ix2 r j)).trans ?_
  refine (mulf_apply _ _ _).trans ?_
  refine congrArg₂ (· * ·) (tile_product x u r j) ?_
  refine (mulf_apply _ _ _).trans ?_
  unfold swish
  refine congrArg₂ (· * ·) (tile_product x g r j) ?_
  exact congrArg Ideal.logistic (tile_product x g r j)

end Cert.KernelIdeal.Step

end
-- ==== Proof.Blocks.lean ====
/-
  The four input blocks of a grid point, read at an entry of the argument arrays.

  The grid has 256 points, the hidden-unit tile running fastest: point `t` works on tile `t % 16` of run `t / 16`, and
  run `q` owns the 512 token rows `512 q … 512 q + 511`, all of expert `q / 2`. So at point `t`
    the token block's entry (r, h)        is x [512 (t/16) + r, h],
    a gate / up weight tile's entry (0, h, j) is W [t/32, h, 512 (t%16) + j],
    the down weight tile's entry (0, j, c)    is Wd[t/32, 512 (t%16) + j, c].
  The kernel is handed bf16 copies of the four arrays; on the extended reals a change of format is the identity, so
  these are the argument arrays themselves.
-/
import proofs.«100543_j5394478924014_2_alg».proof.Proof.Gen.KernelIdeal.Frame
import proofs.«100543_j5394478924014_2_alg».proof.Proof.Spec
import proofs.«100543_j5394478924014_2_alg».proof.Proof.Step
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.GatedExperts Cert.KernelIdeal.Step

variable (m : (ℓ : Loc nD τ sig) → Buf (Elt Ideal) ℓ)

/-- The four argument arrays on core `c`, as launched. -/
abbrev A0 (c : Dev nD) : Tok := m ((c : Thread nD τ).loc main_arg0)
abbrev A1 (c : Dev nD) : WIn := m ((c : Thread nD τ).loc main_arg1)
abbrev A2 (c : Dev nD) : WIn := m ((c : Thread nD τ).loc main_arg2)
abbrev A3 (c : Dev nD) : WOut := m ((c : Thread nD τ).loc main_arg3)

/-- Row `r` of run `q`'s token block, as a row of the token array. -/
def rowAt (q : ℕ) (r : Fin 512) : Fin 8192 := ⟨(512 * q + r.val) % 8192, Nat.mod_lt _ (by decide)⟩
/-- The expert of run `q`. -/
def expAt (q : ℕ) : Fin 8 := ⟨(q / 2) % 8, Nat.mod_lt _ (by decide)⟩
/-- A hidden unit from its number. -/
def hid (k : ℕ) : Fin 8192 := ⟨k % 8192, Nat.mod_lt _ (by decide)⟩

/-- The windows' block indices, decided over the grid. -/
theorem idx_facts : ∀ t : Fin cfg0.N,
    win0_0.index t (0 : Fin 2) = t.val / 16 ∧ win0_0.index t (1 : Fin 2) = 0
    ∧ win0_1.index t (0 : Fin 3) = t.val / 32 ∧ win0_1.index t (1 : Fin 3) = 0 ∧ win0_1.index t (2 : Fin 3) = t.val % 16
    ∧ win0_2.index t (0 : Fin 3) = t.val / 32 ∧ win0_2.index t (1 : Fin 3) = 0 ∧ win0_2.index t (2 : Fin 3) = t.val % 16
    ∧ win0_3.index t (0 : Fin 3) = t.val / 32 ∧ win0_3.index t (1 : Fin 3) = t.val % 16 ∧ win0_3.index t (2 : Fin 3) = 0
    ∧ win0_4.index t (0 : Fin 2) = t.val / 16 ∧ win0_4.index t (1 : Fin 2) = 0 :=
  (by decide +kernel : ∀ t : Fin grid0.N, _)

/-- The bf16 copy of the token array the region finds is the token array. -/
theorem V_tok (c : Dev nD) : (V m c main_v0 : S8192x2048.Idx → EReal) = A0 m c := by
  dsimp only [V, hostOps0]; after_results; rfl
theorem V_gate (c : Dev nD) : (V m c main_v1 : S8x2048x8192.Idx → EReal) = A1 m c := by
  dsimp only [V, hostOps0]; after_results; rfl
theorem V_up (c : Dev nD) : (V m c main_v2 : S8x2048x8192.Idx → EReal) = A2 m c := by
  dsimp only [V, hostOps0]; after_results; rfl
theorem V_down (c : Dev nD) : (V m c main_v3 : S8x8192x2048.Idx → EReal) = A3 m c := by
  dsimp only [V, hostOps0]; after_results; rfl

/-- The token block at point `t`, entry (r, h). -/
theorem tok_block (c : Dev nD) (t : Fin cfg0.N) (r : Fin 512) (h : Fin 2048) :
    (iblk m c 0 t : Vec Ideal S512x2048 .bf16) (ix2 r h) = A0 m c (ix2 (rowAt (t.val / 16) r) h) := by
  obtain ⟨e0, e1, -⟩ := idx_facts t
  have hN : t.val < 256 := lt_of_lt_of_eq t.isLt N_0
  unfold iblk
  rw [View.read_apply]
  show V m c main_v0 _ = _
  rw [V_tok]
  refine congrArg (A0 m c) ?_
  funext a; apply Fin.ext
  match a with
  | ⟨0, _⟩ => show win0_0.index t (0 : Fin 2) * 512 + 1 * r.val = (512 * (t.val / 16) + r.val) % 8192; rw [e0]; omega
  | ⟨1, _⟩ => show win0_0.index t (1 : Fin 2) * 2048 + 1 * h.val = h.val; rw [e1]; omega

/-- The gate weight tile at point `t`, entry (0, h, j). -/
theorem gate_block (c : Dev nD) (t : Fin cfg0.N) (h : Fin 2048) (j : Fin 512) :
    (iblk m c 1 t : Vec Ideal S1x2048x512 .bf16) (ix3 0 h j) = A1 m c (ix3 (expAt (t.val / 16)) h (hid (512 * (t.val % 16) + j.val))) := by
  obtain ⟨-, -, e0, e1, e2, -⟩ := idx_facts t
  have hN : t.val < 256 := lt_of_lt_of_eq t.isLt N_0
  unfold iblk
  rw [View.read_apply]
  show V m c main_v1 _ = _
  rw [V_gate]
  refine congrArg (A1 m c) ?_
  funext a; apply Fin.ext
  match a with
  | ⟨0, _⟩ => show win0_1.index t (0 : Fin 3) * 1 + 1 * 0 = (t.val / 16 / 2) % 8; rw [e0]; omega
  | ⟨1, _⟩ => show win0_1.index t (1 : Fin 3) * 2048 + 1 * h.val = h.val; rw [e1]; omega
  | ⟨2, _⟩ => show win0_1.index t (2 : Fin 3) * 512 + 1 * j.val = (512 * (t.val % 16) + j.val) % 8192; rw [e2]; omega

/-- The up weight tile at point `t`, entry (0, h, j). -/
theorem up_block (c : Dev nD) (t : Fin cfg0.N) (h : Fin 2048) (j : Fin 512) :
    (iblk m c 2 t : Vec Ideal S1x2048x512 .bf16) (ix3 0 h j) = A2 m c (ix3 (expAt (t.val / 16)) h (hid (512 * (t.val % 16) + j.val))) := by
  obtain ⟨-, -, -, -, -, e0, e1, e2, -⟩ := idx_facts t
  have hN : t.val < 256 := lt_of_lt_of_eq t.isLt N_0
  unfold iblk
  rw [View.read_apply]
  show V m c main_v2 _ = _
  rw [V_up]
  refine congrArg (A2 m c) ?_
  funext a; apply Fin.ext
  match a with
  | ⟨0, _⟩ => show win0_2.index t (0 : Fin 3) * 1 + 1 * 0 = (t.val / 16 / 2) % 8; rw [e0]; omega
  | ⟨1, _⟩ => show win0_2.index t (1 : Fin 3) * 2048 + 1 * h.val = h.val; rw [e1]; omega
  | ⟨2, _⟩ => show win0_2.index t (2 : Fin 3) * 512 + 1 * j.val = (512 * (t.val % 16) + j.val) % 8192; rw [e2]; omega

/-- The down weight tile at point `t`, entry (0, j, c). -/
theorem down_block (c : Dev nD) (t : Fin cfg0.N) (j : Fin 512) (cc : Fin 2048) :
    (iblk m c 3 t : Vec Ideal S1x512x2048 .bf16) (ix3 0 j cc) = A3 m c (ix3 (expAt (t.val / 16)) (hid (512 * (t.val % 16) + j.val)) cc) := by
  obtain ⟨-, -, -, -, -, -, -, -, e0, e1, e2, -⟩ := idx_facts t
  have hN : t.val < 256 := lt_of_lt_of_eq t.isLt N_0
  unfold iblk
  rw [View.read_apply]
  show V m c main_v3 _ = _
  rw [V_down]
  refine congrArg (A3 m c) ?_
  funext a; apply Fin.ext
  match a with
  | ⟨0, _⟩ => show win0_3.index t (0 : Fin 3) * 1 + 1 * 0 = (t.val / 16 / 2) % 8; rw [e0]; omega
  | ⟨1, _⟩ => show win0_3.index t (1 : Fin 3) * 512 + 1 * j.val = (512 * (t.val % 16) + j.val) % 8192; rw [e1]; omega
  | ⟨2, _⟩ => show win0_3.index t (2 : Fin 3) * 2048 + 1 * cc.val = cc.val; rw [e2]; omega

/-- The summand of the result's last sum, for run `q`, block row `r`, column `c`, at hidden unit number `k`. -/
def term (c : Dev nD) (q : ℕ) (r : Fin 512) (cc : Fin 2048) (k : ℕ) : EReal :=
  act (A0 m c) (A1 m c) (A2 m c) (rowAt q r) (expAt q) (hid k) * A3 m c (ix3 (expAt q) (hid k) cc)

/-- Tile `f`'s share of that sum. -/
def tileSum (c : Dev nD) (q : ℕ) (r : Fin 512) (cc : Fin 2048) (f : ℕ) : EReal :=
  ∑ j : Fin 512, term m c q r cc (512 * f + j.val)

/-- A projection inside the point's blocks is the projection on the arrays. -/
theorem tileProj_gate (c : Dev nD) (t : Fin cfg0.N) (r j : Fin 512) :
    tileProj (iblk m c 0 t) (iblk m c 1 t) r j
      = proj (A0 m c) (A1 m c) (rowAt (t.val / 16) r) (expAt (t.val / 16)) (hid (512 * (t.val % 16) + j.val)) := by
  unfold tileProj proj
  exact Finset.sum_congr rfl fun h _ => congrArg₂ (· * ·) (tok_block m c t r h) (gate_block m c t h j)

theorem tileProj_up (c : Dev nD) (t : Fin cfg0.N) (r j : Fin 512) :
    tileProj (iblk m c 0 t) (iblk m c 2 t) r j
      = proj (A0 m c) (A2 m c) (rowAt (t.val / 16) r) (expAt (t.val / 16)) (hid (512 * (t.val % 16) + j.val)) := by
  unfold tileProj proj
  exact Finset.sum_congr rfl fun h _ => congrArg₂ (· * ·) (tok_block m c t r h) (up_block m c t h j)

/-- THE STEP AT POINT `t`, on the arrays: the accumulator's entry (r, c) gains tile `t % 16`'s share of run `t / 16`'s sum. -/
theorem step_point (c : Dev nD) (t : Fin cfg0.N) (a : Vec Ideal S512x2048 .f32) (r : Fin 512) (cc : Fin 2048) :
    k0_pay2 (F := Ideal) (iblk m c 0 t) (iblk m c 1 t) (iblk m c 2 t) (iblk m c 3 t) a (ix2 r cc)
      = a (ix2 r cc) + tileSum m c (t.val / 16) r cc (t.val % 16) := by
  refine (step_apply (iblk m c 0 t) (iblk m c 1 t) (iblk m c 2 t) (iblk m c 3 t) a r cc).trans ?_
  refine congrArg (a (ix2 r cc) + ·) ?_
  unfold tileSum term act
  refine Finset.sum_congr rfl fun j _ => ?_
  refine congrArg₂ (· * ·) ?_ (down_block m c t j cc)
  exact congrArg₂ (· * ·) (tileProj_up m c t r j) (congrArg swish (tileProj_gate m c t r j))

end Cert.KernelIdeal.Blocks

end
-- ==== Proof.LibSumBlocks.lean ====
/-
  Regrouping finite sums, in ANY commutative additive monoid (so on the extended reals, where no finiteness is
  needed: only commutativity and associativity of addition are used).

  * `sum_blocks`: a sum over `Fin (T * C)` is the sum over `T` blocks of the sums over the `C` terms of each block,
    the term of block `t` at place `c` being the one at `C * t + c`.  This is how ONE contraction over `k = C·t + c`
    (an im2col product, a full-length dot) meets `T` partial contractions over `c` (one product per tap, or per K-tile).
  * `sum_blocks_fin`: the same with the summand a function on `Fin (T * C)`.
  * `nine_left`: the left-nested sum `(((d 0 + d 1) + d 2) + …) + d 8`, as an accumulator that starts at `d 0` and
    adds one tap after the other leaves it, is `∑ t : Fin 9, d t`.
  * `zero_add_blocks`: an accumulator that starts at zero and adds block after block is the whole sum.
-/
import Mathlib.Algebra.BigOperators.Fin
import Mathlib.Logic.Equiv.Fin.Basic

namespace LibSumBlocks

open Finset

variable {M : Type*} [AddCommMonoid M]

/-- The place `C * t + c` lies below `T * C` when `t < T` and `c < C`. -/
theorem block_lt {T C : ℕ} (t : Fin T) (c : Fin C) : C * t.val + c.val < T * C := by
  have ht : t.val + 1 ≤ T := t.isLt
  calc C * t.val + c.val < C * t.val + C := Nat.add_lt_add_left c.isLt _
    _ = C * (t.val + 1) := (Nat.mul_succ _ _).symm
    _ ≤ C * T := Nat.mul_le_mul_left _ ht
    _ = T * C := Nat.mul_comm _ _

/-- A sum over `Fin (T * C)` block by block, the summand a function on `Fin (T * C)`. -/
theorem sum_blocks_fin (T C : ℕ) (g : Fin (T * C) → M) :
    ∑ k : Fin (T * C), g k = ∑ t : Fin T, ∑ c : Fin C, g ⟨C * t.val + c.val, block_lt t c⟩ := by
  rw [← Equiv.sum_comp (finProdFinEquiv (m := T) (n := C)) g, Fintype.sum_prod_type]
  refine Finset.sum_congr rfl fun t _ => Finset.sum_congr rfl fun c _ => ?_
  congr 1
  apply Fin.ext
  simp [finProdFinEquiv, Nat.add_comm]

/-- A sum over `Fin (T * C)` block by block, the summand read at the place's number. -/
theorem sum_blocks (T C : ℕ) (f : ℕ → M) :
    ∑ k : Fin (T * C), f k.val = ∑ t : Fin T, ∑ c : Fin C, f (C * t.val + c.val) :=
  sum_blocks_fin T C fun k => f k.val

/-- Nine terms added one after the other onto the first are their sum. -/
theorem nine_left (d : ℕ → M) :
    d 0 + d 1 + d 2 + d 3 + d 4 + d 5 + d 6 + d 7 + d 8 = ∑ t : Fin 9, d t.val := by
  simp only [Fin.sum_univ_castSucc, Fin.sum_univ_zero, zero_add, Fin.val_castSucc, Fin.val_last]

/-- An accumulator started at zero that adds the blocks' sums is the whole sum. -/
theorem zero_add_blocks (T C : ℕ) (f : ℕ → M) :
    0 + ∑ t : Fin T, ∑ c : Fin C, f (C * t.val + c.val) = ∑ k : Fin (T * C), f k.val := by
  rw [zero_add, sum_blocks]

end LibSumBlocks
-- ==== Proof.Fold.lean ====
/-
  The accumulator along a run of sixteen grid points.

  The first point of a run (tile 0) leaves `0 + (tile 0's share)`, each later point adds its own tile's share; so after
  tile `j` the accumulator's entry (r, c) is the sum of the shares of tiles 0 … j, and after tile 15 it is the whole sum
  over the 8192 hidden units: sixteen consecutive blocks of 512 terms are the 8192 terms, in any commutative additive
  monoid — nothing is asked of the entries, infinite ones included.
-/
import proofs.«100543_j5394478924014_2_alg».proof.Proof.Gen.KernelIdeal.Value
import proofs.«100543_j5394478924014_2_alg».proof.Proof.Pieces
import proofs.«100543_j5394478924014_2_alg».proof.Proof.Blocks
import proofs.«100543_j5394478924014_2_alg».proof.Proof.LibSumBlocks

set_option maxRecDepth 16384

noncomputable section

open scoped BigOperators

namespace Cert.KernelIdeal.Fold

open Cert.KernelIdeal Cert.KernelIdeal.Gen Idealize.ShloMosaic Idealize.ShloMosaic.TcCoe Idealize.SL.Sem
open Idealize.ShloMosaic.ValueIdx Cert.GatedExperts Cert.KernelIdeal.Blocks Cert.KernelIdeal.Pieces
open Cert.KernelIdeal.Value (scAt0_0)

variable (m : (ℓ : Loc nD τ sig) → Buf (Elt Ideal) ℓ)

/-- The block a run starts from is zero everywhere. -/
theorem zero_block (r : Fin 512) (cc : Fin 2048) : k0_pay1 (F := Ideal) (ix2 r cc) = 0 := by
  unfold k0_pay1
  refine (congrFun (shapeCast_self _ shapeCasts_S512x2048_S512x2048) (ix2 r cc)).trans ?_
  show Ideal.ofBits .f32 0x00000000#32 = 0
  exact Ideal.ofBits_zero_f32

/-- The first point of a run leaves its own tile's share, whatever the accumulator held. -/
theorem point_first (c : Dev nD) (n : ℕ) (hb : n < cfg0.N) (h0 : n % 16 = 0) (acc : Vec Ideal S512x2048 .f32)
    (r : Fin 512) (cc : Fin 2048) :
    scAt0_0 m c n hb acc (ix2 r cc) = tileSum m c (n / 16) r cc (n % 16) := by
  have h1 : ¬n % 16 = 15 := by omega
  unfold scAt0_0
  rw [dif_pos h0, dif_neg h1]
  refine (congrFun (acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))) (ix2 r cc)).trans ?_
  refine (step_point m c (⟨n, hb⟩ : Fin cfg0.N) (k0_pay1 (F := Ideal)) r cc).trans ?_
  rw [zero_block, zero_add]

/-- Every later point adds its tile's share to what the point before left. -/
theorem point_later (c : Dev nD) (n : ℕ) (hb : n < cfg0.N) (h0 : ¬n % 16 = 0) (acc : Vec Ideal S512x2048 .f32)
    (r : Fin 512) (cc : Fin 2048) :
    scAt0_0 m c n hb acc (ix2 r cc) = acc (ix2 r cc) + tileSum m c (n / 16) r cc (n % 16) := by
  unfold scAt0_0
  rw [dif_neg h0]
  by_cases h1 : n % 16 = 15
  · rw [dif_pos h1]
    refine (congrFun (acc_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) (ix2 r cc)).trans ?_
    exact step_point m c (⟨n, hb⟩ : Fin cfg0.N) acc r cc
  · rw [dif_neg h1]
    refine (congrFun (acc_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) (ix2 r cc)).trans ?_
    exact step_point m c (⟨n, hb⟩ : Fin cfg0.N) acc r cc

/-- AFTER TILE `j` of the run that starts at point `b`: the shares of tiles 0 … j. -/
theorem run_partial (c : Dev nD) (b : ℕ) (hb16 : b % 16 = 0) (r : Fin 512) (cc : Fin 2048) :
    ∀ (j : ℕ) (hj : j < 16) (h : b + j < cfg0.N),
      Pipeline.accAt (fun n h => scAt0_0 m c n h (VS0_0.read (Elt Ideal) VS0_0.junk)) (scAt0_0 m c) b j h (ix2 r cc)
        = ∑ f ∈ Finset.range (j + 1), tileSum m c (b / 16) r cc f
  | 0, _, h => by
    rw [Pipeline.accAt_zero, point_first m c b _ hb16, hb16, Finset.sum_range_one]
  | j + 1, hj, h => by
    have e1 : (b + (j + 1)) / 16 = b / 16 := by omega
    have e2 : (b + (j + 1)) % 16 = j + 1 := by omega
    rw [Pipeline.accAt_succ, point_later m c (b + (j + 1)) h (by omega), run_partial c b hb16 r cc j (by omega) _, e1, e2,
      Finset.sum_range_succ _ (j + 1)]

/-- Sixteen tiles of 512 hidden units are the 8192 hidden units. -/
theorem run_total (c : Dev nD) (q : ℕ) (r : Fin 512) (cc : Fin 2048) :
    ∑ f ∈ Finset.range 16, tileSum m c q r cc f = ∑ k : Fin 8192, term m c q r cc k.val := by
  rw [Finset.sum_range]
  exact (LibSumBlocks.sum_blocks 16 512 (term m c q r cc)).symm

/-- ... and that sum is the result's entry at run `q`'s row `r`. -/
theorem total_eq_outAt (c : Dev nD) (q : ℕ) (hq : q < 16) (r : Fin 512) (cc : Fin 2048) :
    ∑ k : Fin 8192, term m c q r cc k.val = outAt (A0 m c) (A1 m c) (A2 m c) (A3 m c) (rowAt q r) cc := by
  have he : expAt q = expertOf (rowAt q r) :=
    Fin.ext (by show (q / 2) % 8 = ((512 * q + r.val) % 8192) / 1024; have := r.isLt; omega)
  unfold outAt term
  refine Finset.sum_congr rfl fun k _ => ?_
  have hk : hid k.val = k := Fin.ext (Nat.mod_eq_of_lt k.isLt)
  rw [hk, he]

end Cert.KernelIdeal.Fold

end
-- ==== Proof.Whole.lean ====
/-
  From the committed blocks to the result array.

  The output window writes a block back only at the last point of a run (points ≡ 15 mod 16); run `q`'s block covers the
  token rows `512 q … 512 q + 511` and every column. What is written there is the accumulator after the run's sixteenth
  step, which is the whole sum over the hidden units: the block is the restriction of `G` of the argument arrays. The
  sixteen runs' blocks tile the [8192, 2048] array, so after the kernel the array is `G` of the argument arrays.
-/
import proofs.«100543_j5394478924014_2_alg».proof.Proof.Gen.KernelIdeal.Value
import proofs.«100543_j5394478924014_2_alg».proof.Proof.Fold
import Idealize.ShloMosaic.Lib.Pipeline.Value

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.GatedExperts Cert.KernelIdeal.Blocks Cert.KernelIdeal.Pieces Cert.KernelIdeal.Fold

variable (m : (ℓ : Loc nD τ sig) → Buf (Elt Ideal) ℓ) (ρ : Dev nD → PrngReg)

/-- The result, as contents of the output array on core `c`. -/
abbrev result (c : Dev nD) : Buf (Elt Ideal) ((c : Thread nD τ).loc main_v4) := G (A0 m c) (A1 m c) (A2 m c) (A3 m c)

/-- Entry (r, c) of run `t / 16`'s output block sits at row `512 (t / 16) + r`, column `c` of the array. -/
theorem out_emb (t : Fin cfg0.N) (r : Fin 512) (cc : Fin 2048) :
    (((cfg0.win 4).blk t).view.emb (ix2 r cc) : S8192x2048.Idx) = ix2 (rowAt (t.val / 16) r) cc := by
  obtain ⟨-, -, -, -, -, -, -, -, -, -, -, e0, e1⟩ := idx_facts t
  have hN : t.val < 256 := lt_of_lt_of_eq t.isLt N_0
  funext a; apply Fin.ext
  match a with
  | ⟨0, _⟩ => show win0_4.index t (0 : Fin 2) * 512 + 1 * r.val = (512 * (t.val / 16) + r.val) % 8192; rw [e0]; omega
  | ⟨1, _⟩ => show win0_4.index t (1 : Fin 2) * 2048 + 1 * cc.val = cc.val; rw [e1]; omega

/-- WHAT A RUN'S LAST POINT WRITES BACK is its block of the result. -/
theorem flushed_eq (c : Dev nD) (t : Fin cfg0.N) (hf : (cfg0.win 4).flush t = true) :
    (dats m 0 c).flushed 4 t = ((cfg0.win 4).blk t).view.read (Elt Ideal) (result m c) := by
  have h1 : t.val % 16 = 15 := (flush0_4 t).mp hf
  have h0 : ¬t.val % 16 = 0 := by omega
  have hN : t.val < 256 := lt_of_lt_of_eq t.isLt N_0
  have hlt : t.val - 1 < cfg0.N := Nat.lt_of_le_of_lt (Nat.sub_le _ _) t.isLt
  rw [Value.flushed4_C m c t h0 h1]
  funext y
  obtain ⟨r, cc, rfl⟩ : ∃ (r : Fin 512) (cc : Fin 2048), y = ix2 r cc := ⟨y 0, y 1, eq_ix2 y⟩
  rw [View.read_apply, out_emb]
  show out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) hlt).2 (ix2 r cc)
    = outAt (A0 m c) (A1 m c) (A2 m c) (A3 m c) (rowAt (t.val / 16) r) cc
  refine (congrFun (out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) hlt).2) (ix2 r cc)).trans ?_
  refine (step_point m c t _ r cc).trans ?_
  have hs := congrFun (Value.soutsAt0_0_eq m c ⟨t.val - 1, hlt⟩) (ix2 r cc)
  have hp := run_partial m c (16 * ((t.val - 1) / 16)) (by omega) r cc ((t.val - 1) % 16) (by omega)
    (by have := Nat.div_add_mod (t.val - 1) 16; omega)
  have e1 : (t.val - 1) % 16 + 1 = 15 := by omega
  have e2 : 16 * ((t.val - 1) / 16) / 16 = t.val / 16 := by omega
  rw [e1, e2] at hp
  refine (congrArg (· + tileSum m c (t.val / 16) r cc (t.val % 16)) (hs.trans hp)).trans ?_
  rw [h1, ← Finset.sum_range_succ (fun f => tileSum m c (t.val / 16) r cc f) 15, run_total,
    total_eq_outAt m c (t.val / 16) (by omega)]

/-- An index of the array is in point `t`'s output block iff each coordinate is in the block's range on its axis. -/
theorem mem_blk (t : Fin cfg0.N) (i : S8192x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v4).slice (win0_4.rect t)).set ↔ _
  rw [View.set_slice_whole, Rect.mem_set_unit]
  exact Iff.rfl

/-- Every entry of the array is in the block some run's last point writes back: row `i` belongs to run `i / 512`. -/
theorem cover (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  have hN : cfg0.N = 256 := N_0
  let t : Fin cfg0.N := ⟨16 * ((i 0).val / 512) + 15, by rw [hN]; omega⟩
  have ht : t.val = 16 * ((i 0).val / 512) + 15 := rfl
  obtain ⟨-, -, -, -, -, -, -, -, -, -, -, e0, e1⟩ := idx_facts t
  refine ⟨t, (flush0_4 t).mpr (by rw [ht]; omega), ?_⟩
  rw [mem_blk]
  intro a
  match a with
  | ⟨0, _⟩ => show win0_4.index t (0 : Fin 2) * 512 ≤ (i 0).val ∧ (i 0).val < win0_4.index t (0 : Fin 2) * 512 + 512; rw [e0, ht]; omega
  | ⟨1, _⟩ => show win0_4.index t (1 : Fin 2) * 2048 ≤ (i 1).val ∧ (i 1).val < win0_4.index t (1 : Fin 2) * 2048 + 2048; rw [e1]; omega

/-- THE ARRAY after the kernel is the result. -/
theorem final (c : Dev nD) : (dats m 0 c).arrAt 4 cfg0.N = result m c :=
  (dats m 0 c).arrAt_eq_of_cover 4 (result m c) (flushed_eq m c) cover

/-- The kernel's run, read: the output array at `G` of the argument arrays, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.lean ====
/-
  Eight experts, each a gated two-layer network, applied to their own 1024 of the 8192 token rows:
    out[t, c] = ∑ k < 8192, (up t k · (gate t k · σ(gate t k))) · Wd[e, k, c],   e = t / 1024,
    gate t k = ∑ h < 2048, x[t, h] · Wg[e, h, k],   up t k = ∑ h < 2048, x[t, h] · Wu[e, h, k],   σ z = 1 / (1 + exp (-z)).

  The reference computes this with three batched contractions over reshaped arrays. The kernel walks a grid of
  8 experts × 2 row blocks × 16 hidden-unit tiles, the tile running fastest: at each point it forms a 512 × 512 tile of
  the activation from a 512-row token block and the expert's weight tiles, multiplies it by the matching 512 rows of the
  down weights and adds the product to an accumulator that is cleared at a run's first tile and copied to the output
  block at its last. Over the extended reals both are the same function `G` of the four argument arrays (Proof/Spec.lean):
  the formats the kernel passes through are the identity there, its logistic is the reference's quotient by definition,
  and the only law between the two sides is that a sum of 8192 terms is the sum of its sixteen consecutive blocks of
  512, added one block after the other onto zero — commutativity and associativity of addition alone, so the finiteness
  of the inputs is never used.

  Proof/RefIsG.lean: the reference's stages compose to `G`. Proof/Pieces.lean, Step.lean, Blocks.lean: what one grid
  point does to the accumulator, read at an entry of the argument arrays. Proof/Fold.lean: the accumulator along a run.
  Proof/Whole.lean: the committed blocks tile the output array. Here: the five claims.
-/
import proofs.«100543_j5394478924014_2_alg».proof.Defs
import proofs.«100543_j5394478924014_2_alg».proof.Proof.Gen.Kernel
import proofs.«100543_j5394478924014_2_alg».proof.Proof.Gen.Kernel.Skeleton
import proofs.«100543_j5394478924014_2_alg».proof.Proof.Gen.Kernel.Launch
import proofs.«100543_j5394478924014_2_alg».proof.Proof.Gen.Kernel.Points
import proofs.«100543_j5394478924014_2_alg».proof.Proof.Gen.Kernel.Frame
import proofs.«100543_j5394478924014_2_alg».proof.Proof.Gen.KernelIdeal
import proofs.«100543_j5394478924014_2_alg».proof.Proof.Gen.KernelIdeal.Skeleton
import proofs.«100543_j5394478924014_2_alg».proof.Proof.Gen.KernelIdeal.Launch
import proofs.«100543_j5394478924014_2_alg».proof.Proof.Gen.KernelIdeal.Points
import proofs.«100543_j5394478924014_2_alg».proof.Proof.Gen.KernelIdeal.Frame
import proofs.«100543_j5394478924014_2_alg».proof.Proof.Gen.ReferenceIdeal
import proofs.«100543_j5394478924014_2_alg».proof.Proof.Gen.Pre_finite_inputs
import proofs.«100543_j5394478924014_2_alg».proof.Proof.Gen.KernelIdeal.Value
import proofs.«100543_j5394478924014_2_alg».proof.Proof.Gen.ReferenceIdeal.Run
import proofs.«100543_j5394478924014_2_alg».proof.Proof.Gen.ReferenceIdeal.Read
import proofs.«100543_j5394478924014_2_alg».proof.Proof.RefIsG
import proofs.«100543_j5394478924014_2_alg».proof.Proof.Whole
import Idealize.ShloMosaic.Adequacy
import Idealize.ShloMosaic.Init

noncomputable section

namespace Cert.Proof

open Idealize.ShloMosaic Idealize.SL.Sem

/-- The word-level kernel terminates without a fault and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From arguments that agree, the kernel's output array and the reference's result both end at `G` of the arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2.1, (hagree c).2.2.1, (hagree c).2.2.2]
  exact Cert.ReferenceIdeal.RefValue.reference_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
